-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x50x128 : Shape := ⟨3, ![16384, 50, 128]⟩
abbrev S16384 : Shape := ⟨1, ![16384]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x50x128 : S_.BroadcastsInDim S16384x50x128 (![] : Fin 0 → Fin S16384x50x128.rank)
  reducesTo_S16384x50x128_S_d0_1_2 : S16384x50x128.ReducesTo [0, 1, 2] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x384 .f32) (main_arg6 : FVec F S128x384 .f32) (main_arg7 : FVec F S384 .f32) (main_arg8 : FVec F S128x128 .f32) (main_arg9 : FVec F S128x128 .f32) (main_arg10 : FVec F S128 .f32) (main_v13 : IVec S_ 1) (main_v16 : IVec S16384x128 1) : IVec S_ 1 :=
  let main_c_5 : IVec S_ 1 := constantI S_ 1 1#1
  let main_v17 : IVec S_ 1 := (fun x v => Host.reduce IntOp.andi x v reducesTo_S16384x128_S_d0_1 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_v33

def fn {F : FTy → Type} [FloatOps F] (main_arg0 : FVec F S16384x128 .f32) (main_arg1 : FVec F S16384x50x128 .f32) (main_arg2 : IVec S16384 32) (main_arg3 : FVec F S16384x128 .f32) (main_arg4 : FVec F S16384x128 .f32) (main_arg5 : FVec F S128x384 .f32) (main_arg6 : FVec F S128x384 .f32) (main_arg7 : FVec F S384 .f32) (main_arg8 : FVec F S128x128 .f32) (main_arg9 : FVec F S128x128 .f32) (main_arg10 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x50x128 .f32 := Host.absf main_arg1
  let main_cst_0 : FVec F S_ .f32 := constant S_ .f32 0x7F800000#32
  let main_v5 : FVec F S16384x50x128 .f32 := broadcastInDim S16384x50x128 ![] bcast_S_S16384x50x128 main_cst_0
  let main_v6 : IVec S16384x50x128 1 := cmpf .olt main_v4 main_v5
  let main_c_1 : IVec S_ 1 := constantI S_ 1 1#1
  let main_v7 : IVec S_ 1 := (fun x v => Host.reduce IntOp.andi x v reducesTo_S16384x50x128_S_d0_1_2 h_S_) main_v6 main_c_1
  let main_v8 : IVec S_ 1 := andi main_v3 main_v7
  let main_v9 : FVec F S16384x128 .f32 := Host.absf main_arg3
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S16384x128 .f32 := Host.absf main_arg4
  let main_cst_4 : FVec F S_ .f32 := constant S_ .f32 0x7F800000#32
  let main_v15 : FVec F S16384x128 .f32 := broadcastInDim S16384x128 ![] bcast_S_S16384x128 main_cst_4
  let main_v16 : IVec S16384x128 1 := cmpf .olt main_v14 main_v15
  fn_part1 (F := F) main_arg5 main_arg6 main_arg7 main_arg8 main_arg9 main_arg10 main_v13 main_v16
-- ==== Kernel.lean ====
abbrev S16384x128 : Shape := ⟨2, ![16384, 128]⟩
abbrev S16384x50x128 : Shape := ⟨3, ![16384, 50, 128]⟩
abbrev S16384 : Shape := ⟨1, ![16384]⟩
abbrev S128x384 : Shape := ⟨2, ![128, 384]⟩
abbrev S384 : Shape := ⟨1, ![384]⟩
abbrev S128x128 : Shape := ⟨2, ![128, 128]⟩
abbrev S128 : Shape := ⟨1, ![128]⟩
abbrev S50 : Shape := ⟨1, ![50]⟩
abbrev S1x50 : Shape := ⟨2, ![1, 50]⟩
abbrev S16384x1 : Shape := ⟨2, ![16384, 1]⟩
abbrev S16384x50 : Shape := ⟨2, ![16384, 50]⟩
abbrev S1x384 : Shape := ⟨2, ![1, 384]⟩
abbrev S1x128 : Shape := ⟨2, ![1, 128]⟩
abbrev S256x128 : Shape := ⟨2, ![256, 128]⟩
abbrev S256x50x128 : Shape := ⟨3, ![256, 50, 128]⟩
abbrev S256x50 : Shape := ⟨2, ![256, 50]⟩
abbrev S256x384 : Shape := ⟨2, ![256, 384]⟩
abbrev S12800x128 : Shape := ⟨2, ![12800, 128]⟩
abbrev S1x1x128 : Shape := ⟨3, ![1, 1, 128]⟩
abbrev S256x1x128 : Shape := ⟨3, ![256, 1, 128]⟩
abbrev S256x50x1 : Shape := ⟨3, ![256, 50, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x50x128, .f32⟩
  | .hbm, ⟨2, _⟩ => ⟨S16384, .i32⟩
  | .hbm, ⟨3, _⟩ => ⟨S16384x128, .f32⟩
  | .hbm, ⟨4, _⟩ => ⟨S16384x128, .f32⟩
  | .hbm, ⟨5, _⟩ => ⟨S128x384, .f32⟩
  | .hbm, ⟨6, _⟩ => ⟨S128x384, .f32⟩
  | .hbm, ⟨7, _⟩ => ⟨S384, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S50, .i32⟩
  | .hbm, ⟨12, _⟩ => ⟨S1x50, .i32⟩
  | .hbm, ⟨13, _⟩ => ⟨S16384x1, .i32⟩
  | .hbm, ⟨14, _⟩ => ⟨S16384x50, .i32⟩
  | .hbm, ⟨15, _⟩ => ⟨S16384x50, .i32⟩
  | .hbm, ⟨16, _⟩ => ⟨S16384x50, .i1⟩
  | .hbm, ⟨17, _⟩ => ⟨S16384x50, .f32⟩
  | .hbm, ⟨18, _⟩ => ⟨S1x384, .f32⟩
  | .hbm, ⟨19, _⟩ => ⟨S1x128, .f32⟩
  | .hbm, ⟨20, _⟩ => ⟨S16384x128, .f32⟩
  | .hbm, ⟨21, _⟩ => ⟨S16384x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x50x128, .f32⟩
  | .local _ .vmem, ⟨5, _⟩ => ⟨S256x50x128, .f32⟩
  | .local _ .vmem, ⟨6, _⟩ => ⟨S256x50, .f32⟩
  | .local _ .vmem, ⟨7, _⟩ => ⟨S256x50, .f32⟩
  | .local _ .vmem, ⟨8, _⟩ => ⟨S128x384, .f32⟩
  | .local _ .vmem, ⟨9, _⟩ => ⟨S128x384, .f32⟩
  | .local _ .vmem, ⟨10, _⟩ => ⟨S1x384, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S50_S1x50_1 : S50.BroadcastsInDim S1x50 (![1] : Fin 1 → Fin S1x50.rank)
  bcast_S16384_S16384x1_0 : S16384.BroadcastsInDim S16384x1 (![0] : Fin 1 → Fin S16384x1.rank)
  bcast_S1x50_S16384x50_0_1 : S1x50.BroadcastsInDim S16384x50 (![0, 1] : Fin 2 → Fin S16384x50.rank)
  bcast_S16384x1_S16384x50_0_1 : S16384x1.BroadcastsInDim S16384x50 (![0, 1] : Fin 2 → Fin S16384x50.rank)
  shapeCasts_S384_S1x384 : S384.ShapeCasts S1x384
  shapeCasts_S128_S1x128 : S128.ShapeCasts S1x128
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  slices_S256x384_o0_0_S256x128 : S256x384.Slices ![0, 0] S256x128
  slices_S256x384_o0_128_S256x128 : S256x384.Slices ![0, 128] S256x128
  slices_S256x384_o0_256_S256x128 : S256x384.Slices ![0, 256] S256x128
  inb_S128x128_S128x128_0_0 : ∀ a, (![0, 0] : Fin 2 → Nat) a + S128x128.size a ≤ S128x128.size a
  h_S128x128 : 0 < S128x128.numel
  inb_S256x50x128_S256x50x128_0_0_0 : ∀ a, (![0, 0, 0] : Fin 3 → Nat) a + S256x50x128.size a ≤ S256x50x128.size a
  h_S256x50x128 : 0 < S256x50x128.numel
  shapeCasts_S256x50x128_S12800x128 : S256x50x128.ShapeCasts S12800x128
  shapeCasts_S12800x128_S256x50x128 : S12800x128.ShapeCasts S256x50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S256x128_S256x1x128 : S256x128.ShapeCasts S256x1x128
  broadcasts_S256x1x128_S256x50x128 : S256x1x128.Broadcasts S256x50x128
  broadcasts_S1x1x128_S256x50x128 : S1x1x128.Broadcasts S256x50x128
  inb_S256x50_S256x50_0_0 : ∀ a, (![0, 0] : Fin 2 → Nat) a + S256x50.size a ≤ S256x50.size a
  h_S256x50 : 0 < S256x50.numel
  shapeCasts_S256x50_S256x50 : S256x50.ShapeCasts S256x50
  shapeCasts_S256x50_S256x50x1 : S256x50.ShapeCasts S256x50x1
  broadcasts_S256x50x1_S256x50x128 : S256x50x1.Broadcasts S256x50x128
  reduces_S256x50x128_S256x128 : S256x50x128.Reduces [1] S256x128
  dot_S256x128_S128x384_S256x384_1_0_0_1_n_n_wf : DotDims.WF S256x128 S128x384 S256x384 [1] [0] [0] [1] [] []
  dot_S256x128_S128x128_S256x128_1_0_0_1_n_n_wf : DotDims.WF S256x128 S128x128 S256x128 [1] [0] [0] [1] [] []
  dot_S12800x128_S128x128_S12800x128_1_0_0_1_n_n_wf : DotDims.WF S12800x128 S128x128 S12800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S16384x128.size a
  hwx0_1 : ∀ i : grid0.Coords, EltTy.bits .f32 = 32 ∨ (Rect.block (s := S16384x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x50x128.size a ≤ S16384x50x128.size a
  hwx0_2 : ∀ i : grid0.Coords, EltTy.bits .f32 = 32 ∨ (Rect.block (s := S16384x50x128) S256x50x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x50.size a ≤ S16384x50.size a
  hwx0_3 : ∀ i : grid0.Coords, EltTy.bits .f32 = 32 ∨ (Rect.block (s := S16384x50) S256x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S16384x128.size a
  hwx0_10 : ∀ i : grid0.Coords, EltTy.bits .f32 = 32 ∨ (Rect.block (s := S16384x128) S256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S16384x128.size a
  hwx0_11 : ∀ i : grid0.Coords, EltTy.bits .f32 = 32 ∨ (Rect.block (s := S16384x128) S256x128.size (cc0_transform_11 i) (hinb0_11 i)).WholeWords (EltTy.packing .f32)

variable [Facts₀]

def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x50x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x50x128 : Shape := ⟨3, ![16384, 50, 128]⟩
abbrev S16384 : Shape := ⟨1, ![16384]⟩
abbrev S128x384 : Shape := ⟨2, ![128, 384]⟩
abbrev S384 : Shape := ⟨1, ![384]⟩
abbrev S128x128 : Shape := ⟨2, ![128, 128]⟩
abbrev S128 : Shape := ⟨1, ![128]⟩
abbrev S16384x384 : Shape := ⟨2, ![16384, 384]⟩
abbrev S1x384 : Shape := ⟨2, ![1, 384]⟩
abbrev S_ : Shape := ⟨0, ![]⟩
abbrev S16384x1x128 : Shape := ⟨3, ![16384, 1, 128]⟩
abbrev S1x1x128 : Shape := ⟨3, ![1, 1, 128]⟩
abbrev S50 : Shape := ⟨1, ![50]⟩
abbrev S1x50 : Shape := ⟨2, ![1, 50]⟩
abbrev S16384x1 : Shape := ⟨2, ![16384, 1]⟩
abbrev S16384x50 : Shape := ⟨2, ![16384, 50]⟩
abbrev S16384x50x1 : Shape := ⟨3, ![16384, 50, 1]⟩

abbrev nBuf : Space → Nat
  | .hbm => 76
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x50x128, .f32⟩
  | .hbm, ⟨2, _⟩ => ⟨S16384, .i32⟩
  | .hbm, ⟨3, _⟩ => ⟨S16384x128, .f32⟩
  | .hbm, ⟨4, _⟩ => ⟨S16384x128, .f32⟩
  | .hbm, ⟨5, _⟩ => ⟨S128x384, .f32⟩
  | .hbm, ⟨6, _⟩ => ⟨S128x384, .f32⟩
  | .hbm, ⟨7, _⟩ => ⟨S384, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S16384x384, .f32⟩
  | .hbm, ⟨12, _⟩ => ⟨S16384x384, .f32⟩
  | .hbm, ⟨13, _⟩ => ⟨S16384x384, .f32⟩
  | .hbm, ⟨14, _⟩ => ⟨S1x384, .f32⟩
  | .hbm, ⟨15, _⟩ => ⟨S16384x384, .f32⟩
  | .hbm, ⟨16, _⟩ => ⟨S16384x384, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x1x128, .f32⟩
  | .hbm, ⟨39, _⟩ => ⟨S16384x50x128, .f32⟩
  | .hbm, ⟨40, _⟩ => ⟨S16384x50x128, .f32⟩
  | .hbm, ⟨41, _⟩ => ⟨S16384x50x128, .f32⟩
  | .hbm, ⟨42, _⟩ => ⟨S1x1x128, .f32⟩
  | .hbm, ⟨43, _⟩ => ⟨S16384x50x128, .f32⟩
  | .hbm, ⟨44, _⟩ => ⟨S16384x50x128, .f32⟩
  | .hbm, ⟨45, _⟩ => ⟨S16384x50x128, .f32⟩
  | .hbm, ⟨46, _⟩ => ⟨S16384x50x128, .f32⟩
  | .hbm, ⟨47, _⟩ => ⟨S_, .f32⟩
  | .hbm, ⟨48, _⟩ => ⟨S16384x50x128, .f32⟩
  | .hbm, ⟨49, _⟩ => ⟨S16384x50x128, .f32⟩
  | .hbm, ⟨50, _⟩ => ⟨S_, .f32⟩
  | .hbm, ⟨51, _⟩ => ⟨S16384x50x128, .f32⟩
  | .hbm, ⟨52, _⟩ => ⟨S16384x50x128, .f32⟩
  | .hbm, ⟨53, _⟩ => ⟨S50, .i32⟩
  | .hbm, ⟨54, _⟩ => ⟨S1x50, .i32⟩
  | .hbm, ⟨55, _⟩ => ⟨S16384x1, .i32⟩
  | .hbm, ⟨56, _⟩ => ⟨S16384x50, .i32⟩
  | .hbm, ⟨57, _⟩ => ⟨S16384x50, .i32⟩
  | .hbm, ⟨58, _⟩ => ⟨S16384x50, .i1⟩
  | .hbm, ⟨59, _⟩ => ⟨S16384x128, .f32⟩
  | .hbm, ⟨60, _⟩ => ⟨S16384x50x128, .f32⟩
  | .hbm, ⟨61, _⟩ => ⟨S16384x50x1, .i1⟩
  | .hbm, ⟨62, _⟩ => ⟨S16384x50x1, .f32⟩
  | .hbm, ⟨63, _⟩ => ⟨S16384x50x128, .f32⟩
  | .hbm, ⟨64, _⟩ => ⟨S16384x50x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S16384x50x128, .f32⟩
  | .hbm, ⟨70, _⟩ => ⟨S_, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S16384x384_0_1 : S1x384.BroadcastsInDim S16384x384 (![0, 1] : Fin 2 → Fin S16384x384.rank)
  slices_S16384x384_S16384x128_0_0 : S16384x384.Slices ![0, 0] S16384x128
  slices_S16384x384_S16384x128_0_128 : S16384x384.Slices ![0, 128] S16384x128
  slices_S16384x384_S16384x128_0_256 : S16384x384.Slices ![0, 256] S16384x128
  bcast_S_S16384x128 : S_.BroadcastsInDim S16384x128 (![] : Fin 0 → Fin S16384x128.rank)
  bcast_S16384x128_S16384x1x128_0_2 : S16384x128.BroadcastsInDim S16384x1x128 (![0, 2] : Fin 2 → Fin S16384x1x128.rank)
  bcast_S16384x1x128_S16384x50x128_0_1_2 : S16384x1x128.BroadcastsInDim S16384x50x128 (![0, 1, 2] : Fin 3 → Fin S16384x50x128.rank)
  bcast_S128_S1x1x128_2 : S128.BroadcastsInDim S1x1x128 (![2] : Fin 1 → Fin S1x1x128.rank)
  bcast_S1x1x128_S16384x50x128_0_1_2 : S1x1x128.BroadcastsInDim S16384x50x128 (![0, 1, 2] : Fin 3 → Fin S16384x50x128.rank)
  bcast_S_S16384x50x128 : S_.BroadcastsInDim S16384x50x128 (![] : Fin 0 → Fin S16384x50x128.rank)
  bcast_S50_S1x50_1 : S50.BroadcastsInDim S1x50 (![1] : Fin 1 → Fin S1x50.rank)
  bcast_S16384_S16384x1_0 : S16384.BroadcastsInDim S16384x1 (![0] : Fin 1 → Fin S16384x1.rank)
  bcast_S1x50_S16384x50_0_1 : S1x50.BroadcastsInDim S16384x50 (![0, 1] : Fin 2 → Fin S16384x50.rank)
  bcast_S16384x1_S16384x50_0_1 : S16384x1.BroadcastsInDim S16384x50 (![0, 1] : Fin 2 → Fin S16384x50.rank)
  bcast_S16384x50_S16384x50x1_0_1 : S16384x50.BroadcastsInDim S16384x50x1 (![0, 1] : Fin 2 → Fin S16384x50x1.rank)
  bcast_S16384x50x1_S16384x50x128_0_1_2 : S16384x50x1.BroadcastsInDim S16384x50x128 (![0, 1, 2] : Fin 3 → Fin S16384x50x128.rank)
  reducesTo_S16384x50x128_S16384x128_d1 : S16384x50x128.ReducesTo [1] S16384x128
  h_S_ : 0 < S_.numel
  dot_S16384x128_S128x384_S16384x384_1_0_0_1_n_n_wf : DotDims.WF S16384x128 S128x384 S16384x384 [1] [0] [0] [1] [] []
  dot_S16384x128_S128x128_S16384x128_1_0_0_1_n_n_wf : DotDims.WF S16384x128 S128x128 S16384x128 [1] [0] [0] [1] [] []
  dot_S16384x50x128_S128x128_S16384x50x128_2_0_01_1_n_n_wf : DotDims.WF S16384x50x128 S128x128 S16384x50x128 [2] [0] [0, 1] [1] [] []

variable [Facts₀]

def dot_S16384x128_S128x384_S16384x384_1_0_0_1_n_n : DotDims S16384x128 S128x384 S16384x384 where
  lhsContracting := [1]
  rhsContracting := [0]
  lhsNonContracting := [0]
  rhsNonContracting := [1]
  lhsBatch := []
  rhsBatch := []
  wf := dot_S16384x128_S128x384_S16384x384_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x50x128_S128x128_S16384x50x128_2_0_01_1_n_n : DotDims S16384x50x128 S128x128 S16384x50x128 where
  lhsContracting := [2]
  rhsContracting := [0]
  lhsNonContracting := [0, 1]
  rhsNonContracting := [1]
  lhsBatch := []
  rhsBatch := []
  wf := dot_S16384x50x128_S128x128_S16384x50x128_2_0_01_1_n_n_wf

class Facts : Prop extends Facts₀ where

variable [Facts]
-- ==== Proof.Spec.lean ====
/-
  The function both programs compute, stated once, independently of either program.

  One batch row `b` carries an input row `x` (128 entries), a hidden row `r` (128), fifty skip rows `s x'` (128 each)
  and fifty mask entries `μ x'` (each 0 or 1: is skip edge `x'` present). With the shared weights the row's result at
  column `h` is

    gate j      = (Σ_k x k · Wih k j  +  Σ_k r k · Whh k j)  +  bias j                 (j < 384: three bands of 128)
    i, o, g     = σ(gate h),  σ(gate (h+128)),  tanh(gate (h+256))
    α x' h      = σ((Σ_k x k · Aih k h  +  Σ_k s x' k · Ahh k h)  +  abias h)
    e x' h      = exp(α x' h) · μ x'
    c h         = (g · exp i  +  Σ_x' s x' h · e x' h)  /  (exp i  +  Σ_x' e x' h)
    hid h       = o · tanh(c h)

  on the extended reals, σ the logistic function 1 / (1 + exp(−·)). Every sum is a finite sum in a commutative monoid,
  so neither its order nor the blocking of the batch axis matters; no law that needs finiteness (distributivity,
  cancellation) is used anywhere, which is why the inputs' finiteness is never opened.
-/
import Idealize.ShloMosaic.PureOps.Ideal
import Idealize.ShloMosaic.PureOps.Ideal.Laws
import Idealize.ShloMosaic.Lib.ValueIdx

noncomputable section

namespace Cert.SkipCell

open Idealize.ShloMosaic Idealize.ShloMosaic.ValueIdx

/-- The word `0x3F800000` is the float 1.0, which denotes the extended real `1`: the numerator and the summand of the
    reference's spelled-out logistic. -/
theorem one_word : Ideal.ofBits .f32 0x3F800000#32 = 1 := by
  simp [Ideal.ofBits, Ideal.ieee, -EReal.coe_mul]; norm_num

/-- The logistic function spelled out with that word — one over (one plus the exponential of the negation) — is the
    logistic function: the definition of `Ideal.logistic`, once the two words are read as `1`. This is the only place
    the two programs differ in more than the arrangement of a sum: one applies the operation, the other spells it. -/
theorem logistic_spelled (z : EReal) :
    Ideal.div (Ideal.ofBits .f32 0x3F800000#32) (Ideal.ofBits .f32 0x3F800000#32 + Ideal.exp (-z)) = Ideal.logistic z := by
  rw [one_word]; rfl

/-- Column `h` of the first band of the 384 gate columns. -/
abbrev band0 (h : Fin 128) : Fin 384 := ⟨h.val, by have := h.isLt; omega⟩
/-- Column `h` of the second band. -/
abbrev band1 (h : Fin 128) : Fin 384 := ⟨h.val + 128, by have := h.isLt; omega⟩
/-- Column `h` of the third band. -/
abbrev band2 (h : Fin 128) : Fin 384 := ⟨h.val + 256, by have := h.isLt; omega⟩

section Row
variable (x r : Fin 128 → EReal) (s : Fin 50 → Fin 128 → EReal) (μ : Fin 50 → EReal)
  (Wih Whh : Fin 128 → Fin 384 → EReal) (bias : Fin 384 → EReal)
  (Aih Ahh : Fin 128 → Fin 128 → EReal) (abias : Fin 128 → EReal)

/-- The linear gate pre-activation at column `j`: input part plus hidden part, then the bias. -/
def gate (j : Fin 384) : EReal := ((∑ k : Fin 128, x k * Wih k j) + (∑ k : Fin 128, r k * Whh k j)) + bias j

/-- The attention weight of skip edge `x'` at column `h`, before masking. -/
def alpha (x' : Fin 50) (h : Fin 128) : EReal :=
  Ideal.logistic (((∑ k : Fin 128, x k * Aih k h) + (∑ k : Fin 128, s x' k * Ahh k h)) + abias h)

/-- Its exponential, zeroed where the edge is absent. -/
def edge (x' : Fin 50) (h : Fin 128) : EReal := Ideal.exp (alpha x s Aih Ahh abias x' h) * μ x'

/-- The new cell value at column `h`: the exp-weighted mean of the candidate and the skip rows. -/
def cell (h : Fin 128) : EReal :=
  Ideal.div
    ((Ideal.tanh (gate x r Wih Whh bias (band2 h)) * Ideal.exp (Ideal.logistic (gate x r Wih Whh bias (band0 h))))
      + ∑ x' : Fin 50, s x' h * edge x s μ Aih Ahh abias x' h)
    (Ideal.exp (Ideal.logistic (gate x r Wih Whh bias (band0 h))) + ∑ x' : Fin 50, edge x s μ Aih Ahh abias x' h)

/-- The new hidden value at column `h`. -/
def hidden (h : Fin 128) : EReal :=
  Ideal.logistic (gate x r Wih Whh bias (band1 h)) * Ideal.tanh (cell x r s μ Wih Whh bias Aih Ahh abias h)

end Row

/-- Whether skip edge `x'` of batch row `b` is present, as the float both programs multiply by: `x' < count b` (signed),
    converted to 0.0 / 1.0. -/
def present (count : (⟨1, ![16384]⟩ : Shape).Idx → BitVec 32) (b : Fin 16384) (x' : Fin 50) : EReal :=
  FloatOps.uitofp (F := Ideal) .f32 (IntOp.cmpi .slt (BitVec.ofNat 32 x'.val) (count (ix1 b)))

section Arrays
variable (inp hid0 : (⟨2, ![16384, 128]⟩ : Shape).Idx → EReal) (skip : (⟨3, ![16384, 50, 128]⟩ : Shape).Idx → EReal)
  (count : (⟨1, ![16384]⟩ : Shape).Idx → BitVec 32)
  (wih whh : (⟨2, ![128, 384]⟩ : Shape).Idx → EReal) (bias : (⟨1, ![384]⟩ : Shape).Idx → EReal)
  (aih ahh : (⟨2, ![128, 128]⟩ : Shape).Idx → EReal) (abias : (⟨1, ![128]⟩ : Shape).Idx → EReal)

/-- The cell output as ONE function of the ten argument arrays, index by index: row `b` of the result depends on row
    `b` of each batched array, on entry `b` of the edge counts, and on the whole weight arrays. -/
def cellArr : (⟨2, ![16384, 128]⟩ : Shape).Idx → EReal := fun i =>
  cell (fun k => inp (ix2 (i 0) k)) (fun k => hid0 (ix2 (i 0) k)) (fun x' k => skip (ix3 (i 0) x' k))
    (fun x' => present count (i 0) x') (fun k j => wih (ix2 k j)) (fun k j => whh (ix2 k j)) (fun j => bias (ix1 j))
    (fun k h => aih (ix2 k h)) (fun k h => ahh (ix2 k h)) (fun h => abias (ix1 h)) (i 1)

/-- The hidden output likewise. -/
def hiddenArr : (⟨2, ![16384, 128]⟩ : Shape).Idx → EReal := fun i =>
  hidden (fun k => inp (ix2 (i 0) k)) (fun k => hid0 (ix2 (i 0) k)) (fun x' k => skip (ix3 (i 0) x' k))
    (fun x' => present count (i 0) x') (fun k j => wih (ix2 k j)) (fun k j => whh (ix2 k j)) (fun j => bias (ix1 j))
    (fun k h => aih (ix2 k h)) (fun k h => ahh (ix2 k h)) (fun h => abias (ix1 h)) (i 1)

end Arrays

end Cert.SkipCell

end
-- ==== Proof.RefSide.lean ====
/-
  The reference's two results are the specification's functions of its arguments.

  The reference's run is read one operation at a time (the generated read-at-an-index lemmas); what is written here is
  which entries of the arguments each stage reads at explicit coordinates — batch row `b`, skip edge `x'`, column `h` —
  and that the composed stages are the specification's terms:
    · the gate pre-activation at (b, j) is the row's `gate` at column `j`; its three slices are the three bands;
    · the attention pre-activation at (b, x', h) is the row's sum of the input part, the skip part and the bias;
    · the mask at (b, x', h) is `x' < count b` as a float, whatever `h`;
    · each spelled-out logistic is the logistic function (the one joining law, `logistic_spelled`);
    · each host reduction is its initial value, the word for 0.0, plus the sum over the fifty edges.
-/
import proofs.«143210_j40261023432818_1_alg».proof.Proof.Gen.ReferenceIdeal.Read
import proofs.«143210_j40261023432818_1_alg».proof.Proof.Spec

noncomputable section

namespace Cert.SkipCell.Reference

open Cert.ReferenceIdeal Cert.ReferenceIdeal.Read Cert.SkipCell
open Idealize.ShloMosaic Idealize.ShloMosaic.ValueIdx

variable (x0 x3 : (⟨S16384x128, .f32⟩ : BufTy).Contents (Elt Ideal)) (x1 : (⟨S16384x50x128, .f32⟩ : BufTy).Contents (Elt Ideal))
  (x2 : (⟨S16384, .i32⟩ : BufTy).Contents (Elt Ideal))
  (x5 x6 : (⟨S128x384, .f32⟩ : BufTy).Contents (Elt Ideal)) (x7 : (⟨S384, .f32⟩ : BufTy).Contents (Elt Ideal))
  (x8 x9 : (⟨S128x128, .f32⟩ : BufTy).Contents (Elt Ideal)) (x10 : (⟨S128, .f32⟩ : BufTy).Contents (Elt Ideal))

/-- The gate pre-activation at row `b`, column `j`: the two matrix products' entries and the broadcast bias. -/
theorem gate_at (b : Fin 16384) (j : Fin 384) :
    val_main_v5 (F := Ideal) x0 x3 x5 x6 x7 (ix2 b j)
      = gate (fun k => x0 (ix2 b k)) (fun k => x3 (ix2 b k)) (fun k j => x5 (ix2 k j)) (fun k j => x6 (ix2 k j))
          (fun j => x7 (ix1 j)) j := by
  have l0 : ∀ k : Fin 128, lidx_main_v0 (ix2 b j) k = ix2 b k :=
    fun k => funext fun a => by match a with | ⟨0, _⟩ => rfl | ⟨1, _⟩ => rfl
  have r0 : ∀ k : Fin 128, ridx_main_v0 (ix2 b j) k = ix2 k j :=
    fun k => funext fun a => by match a with | ⟨0, _⟩ => rfl | ⟨1, _⟩ => rfl
  have l1 : ∀ k : Fin 128, lidx_main_v1 (ix2 b j) k = ix2 b k :=
    fun k => funext fun a => by match a with | ⟨0, _⟩ => rfl | ⟨1, _⟩ => rfl
  have r1 : ∀ k : Fin 128, ridx_main_v1 (ix2 b j) k = ix2 k j :=
    fun k => funext fun a => by match a with | ⟨0, _⟩ => rfl | ⟨1, _⟩ => rfl
  have eb : idx_main_v3 (idx_main_v4 (ix2 b j)) = ix1 j :=
    funext fun a => by match a with | ⟨0, _⟩ => rfl
  rw [val_main_v5_apply, val_main_v2_apply, val_main_v0_apply, val_main_v1_apply, val_main_v4_apply, val_main_v3_apply]
  simp only [l0, r0, l1, r1, eb, Ideal.addf_def]
  rfl

/-- The first slice at (b, h) is the gate at the first band's column. -/
theorem band0_at (b : Fin 16384) (h : Fin 128) :
    val_main_v6 (F := Ideal) x0 x3 x5 x6 x7 (ix2 b h) = val_main_v5 (F := Ideal) x0 x3 x5 x6 x7 (ix2 b (band0 h)) := by
  rw [val_main_v6_apply]
  exact congrArg _ (funext fun a => by match a with | ⟨0, _⟩ => rfl | ⟨1, _⟩ => rfl)

/-- The second slice at (b, h) is the gate at the second band's column. -/
theorem band1_at (b : Fin 16384) (h : Fin 128) :
    val_main_v7 (F := Ideal) x0 x3 x5 x6 x7 (ix2 b h) = val_main_v5 (F := Ideal) x0 x3 x5 x6 x7 (ix2 b (band1 h)) := by
  rw [val_main_v7_apply]
  exact congrArg _ (funext fun a => by
    match a with
    | ⟨0, _⟩ => rfl
    | ⟨1, _⟩ => exact Fin.ext (Nat.add_comm 128 h.val))

/-- The third slice at (b, h) is the gate at the third band's column. -/
theorem band2_at (b : Fin 16384) (h : Fin 128) :
    val_main_v8 (F := Ideal) x0 x3 x5 x6 x7 (ix2 b h) = val_main_v5 (F := Ideal) x0 x3 x5 x6 x7 (ix2 b (band2 h)) := by
  rw [val_main_v8_apply]
  exact congrArg _ (funext fun a => by
    match a with
    | ⟨0, _⟩ => rfl
    | ⟨1, _⟩ => exact Fin.ext (Nat.add_comm 256 h.val))

/-- The attention pre-activation at (b, x', h): the input part (broadcast along the edges), the skip part, the bias. -/
theorem prealpha_at (b : Fin 16384) (x' : Fin 50) (h : Fin 128) :
    val_main_v29 (F := Ideal) x0 x1 x8 x9 x10 (ix3 b x' h)
      = ((∑ k : Fin 128, x0 (ix2 b k) * x8 (ix2 k h)) + (∑ k : Fin 128, x1 (ix3 b x' k) * x9 (ix2 k h))) + x10 (ix1 h) := by
  have l2 : ∀ k : Fin 128, lidx_main_v22 (idx_main_v23 (idx_main_v25 (ix3 b x' h))) k = ix2 b k :=
    fun k => funext fun a => by match a with | ⟨0, _⟩ => rfl | ⟨1, _⟩ => rfl
  have r2 : ∀ k : Fin 128, ridx_main_v22 (idx_main_v23 (idx_main_v25 (ix3 b x' h))) k = ix2 k h :=
    fun k => funext fun a => by match a with | ⟨0, _⟩ => rfl | ⟨1, _⟩ => rfl
  have l4 : ∀ k : Fin 128, lidx_main_v24 (ix3 b x' h) k = ix3 b x' k :=
    fun k => funext fun a => by match a with | ⟨0, _⟩ => rfl | ⟨1, _⟩ => rfl | ⟨2, _⟩ => rfl
  have r4 : ∀ k : Fin 128, ridx_main_v24 (ix3 b x' h) k = ix2 k h :=
    fun k => funext fun a => by match a with | ⟨0, _⟩ => rfl | ⟨1, _⟩ => rfl
  have eb : idx_main_v27 (idx_main_v28 (ix3 b x' h)) = ix1 h :=
    funext fun a => by match a with | ⟨0, _⟩ => rfl
  rw [val_main_v29_apply, val_main_v26_apply, val_main_v25_apply, val_main_v23_apply, val_main_v22_apply, val_main_v24_apply,
    val_main_v28_apply, val_main_v27_apply]
  simp only [l2, r2, l4, r4, eb, Ideal.addf_def]

/-- The mask at (b, x', h): is edge `x'` below row `b`'s count, as a float; it does not depend on `h`. -/
theorem mask_at (b : Fin 16384) (x' : Fin 50) (h : Fin 128) :
    val_main_v46 (F := Ideal) x2 (ix3 b x' h) = present x2 b x' := by
  have ec : idx_main_v38 (idx_main_v40 (idx_main_v44 (idx_main_v46 (ix3 b x' h)))) = ix1 b :=
    funext fun a => by match a with | ⟨0, _⟩ => rfl
  rw [val_main_v46_apply, val_main_v45_apply, val_main_v44_apply, val_main_v41_apply, val_main_v39_apply, val_main_v37_apply,
    val_main_v36_apply, val_main_v40_apply, val_main_v38_apply, ec]
  rfl

/-- The masked exponential weight at (b, x', h) is the row's `edge`. -/
theorem edge_at (b : Fin 16384) (x' : Fin 50) (h : Fin 128) :
    val_main_v47 (F := Ideal) x0 x1 x2 x8 x9 x10 (ix3 b x' h)
      = edge (fun k => x0 (ix2 b k)) (fun x' k => x1 (ix3 b x' k)) (fun x' => present x2 b x')
          (fun k h => x8 (ix2 k h)) (fun k h => x9 (ix2 k h)) (fun h => x10 (ix1 h)) x' h := by
  rw [val_main_v47_apply, val_main_v43_apply, val_main_v35_apply, val_main_v34_apply, val_main_cst_4_apply, val_main_v33_apply,
    val_main_v32_apply, val_main_cst_3_apply, val_main_v31_apply, val_main_v30_apply, mask_at, prealpha_at]
  simp only [Ideal.mulf_def, Ideal.hostUnary_exp_def, Ideal.hostDivf_def, Ideal.addf_def, Ideal.hostNegf_def, Ideal.negf_def,
    Ideal.ofBits_def, logistic_spelled]
  rfl

/-- The exponential of the input gate at (b, h). -/
theorem expi_at (b : Fin 16384) (h : Fin 128) :
    val_main_v42 (F := Ideal) x0 x3 x5 x6 x7 (ix2 b h)
      = Ideal.exp (Ideal.logistic (gate (fun k => x0 (ix2 b k)) (fun k => x3 (ix2 b k)) (fun k j => x5 (ix2 k j))
          (fun k j => x6 (ix2 k j)) (fun j => x7 (ix1 j)) (band0 h))) := by
  rw [val_main_v42_apply, val_main_v14_apply, val_main_v13_apply, val_main_cst_0_apply, val_main_v12_apply, val_main_v11_apply,
    val_main_cst_apply, val_main_v10_apply, val_main_v9_apply, band0_at, gate_at]
  simp only [Ideal.hostUnary_exp_def, Ideal.hostDivf_def, Ideal.addf_def, Ideal.hostNegf_def, Ideal.negf_def, Ideal.ofBits_def,
    logistic_spelled]

/-- The output gate at (b, h). -/
theorem ogate_at (b : Fin 16384) (h : Fin 128) :
    val_main_v20 (F := Ideal) x0 x3 x5 x6 x7 (ix2 b h)
      = Ideal.logistic (gate (fun k => x0 (ix2 b k)) (fun k => x3 (ix2 b k)) (fun k j => x5 (ix2 k j))
          (fun k j => x6 (ix2 k j)) (fun j => x7 (ix1 j)) (band1 h)) := by
  rw [val_main_v20_apply, val_main_v19_apply, val_main_cst_2_apply, val_main_v18_apply, val_main_v17_apply,
    val_main_cst_1_apply, val_main_v16_apply, val_main_v15_apply, band1_at, gate_at]
  simp only [Ideal.hostUnary_exp_def, Ideal.hostDivf_def, Ideal.addf_def, Ideal.hostNegf_def, Ideal.negf_def, Ideal.ofBits_def,
    logistic_spelled]

/-- The candidate at (b, h). -/
theorem cand_at (b : Fin 16384) (h : Fin 128) :
    val_main_v21 (F := Ideal) x0 x3 x5 x6 x7 (ix2 b h)
      = Ideal.tanh (gate (fun k => x0 (ix2 b k)) (fun k => x3 (ix2 b k)) (fun k j => x5 (ix2 k j))
          (fun k j => x6 (ix2 k j)) (fun j => x7 (ix1 j)) (band2 h)) := by
  rw [val_main_v21_apply, band2_at, gate_at]
  rfl

/-- The edges a reduced index (b, h) sums over: (b, x', h) for the fifty `x'`. -/
theorem edges_of (b : Fin 16384) (h : Fin 128) (x' : Fin 50) : idx_main_v48 (ix2 b h) x' = ix3 b x' h :=
  funext fun a => by match a with | ⟨0, _⟩ => rfl | ⟨1, _⟩ => rfl | ⟨2, _⟩ => rfl
theorem edges_of' (b : Fin 16384) (h : Fin 128) (x' : Fin 50) : idx_main_v52 (ix2 b h) x' = ix3 b x' h :=
  funext fun a => by match a with | ⟨0, _⟩ => rfl | ⟨1, _⟩ => rfl | ⟨2, _⟩ => rfl

/-- The reference's second result, the cell value, at (b, h) is the row's `cell`. -/
theorem cell_at (b : Fin 16384) (h : Fin 128) :
    val_main_v54 (F := Ideal) x0 x1 x2 x3 x5 x6 x7 x8 x9 x10 (ix2 b h) = cellArr x0 x3 x1 x2 x5 x6 x7 x8 x9 x10 (ix2 b h) := by
  rw [val_main_v54_apply, val_main_v53_apply, val_main_v50_apply, val_main_v52_apply, val_main_v49_apply, val_main_v48_apply,
    val_main_cst_6_apply, val_main_cst_5_apply, cand_at, expi_at]
  simp only [edges_of, edges_of', val_main_v51_apply, edge_at, Ideal.ofBits_def, Ideal.ofBits_zero_f32, zero_add,
    Ideal.mulf_def, Ideal.addf_def, Ideal.hostDivf_def]
  rfl

/-- The reference's first result, the hidden value, at (b, h) is the row's `hidden`. -/
theorem hidden_at (b : Fin 16384) (h : Fin 128) :
    val_main_v56 (F := Ideal) x0 x1 x2 x3 x5 x6 x7 x8 x9 x10 (ix2 b h) = hiddenArr x0 x3 x1 x2 x5 x6 x7 x8 x9 x10 (ix2 b h) := by
  rw [val_main_v56_apply, val_main_v55_apply, ogate_at, cell_at]
  rfl

/-- The reference's cell result IS the specification's array function of the arguments. -/
theorem cell_eq : val_main_v54 (F := Ideal) x0 x1 x2 x3 x5 x6 x7 x8 x9 x10 = cellArr x0 x3 x1 x2 x5 x6 x7 x8 x9 x10 :=
  funext fun i => by rw [eq_ix2 i]; exact cell_at x0 x3 x1 x2 x5 x6 x7 x8 x9 x10 (i 0) (i 1)

/-- The reference's hidden result IS the specification's array function of the arguments. -/
theorem hidden_eq : val_main_v56 (F := Ideal) x0 x1 x2 x3 x5 x6 x7 x8 x9 x10 = hiddenArr x0 x3 x1 x2 x5 x6 x7 x8 x9 x10 :=
  funext fun i => by rw [eq_ix2 i]; exact hidden_at x0 x3 x1 x2 x5 x6 x7 x8 x9 x10 (i 0) (i 1)

end Cert.SkipCell.Reference

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibMiddleUnit.lean ====
/-
  A shape cast that inserts a unit axis in the MIDDLE of a rank-2 array, read at an index.

  A `[a, b]` array cast to `[a, 1, b]` (what `x.reshape(a, 1, b)` lowers to: a per-row vector given a unit row
  axis so that it can be cut into `[1, 1, tile]` blocks) reads, at `(e, u, i)`, the operand at `(e, i)`: both sit at
  row-major position `e · b + i`, the unit coordinate `u` being zero.  The library's leading-unit-axis casts
  (`[a, b] → [1, a, b]`) do not cover this placement of the unit axis.
-/
import Idealize.ShloMosaic.Lib.Pipeline.Value
import Idealize.ShloMosaic.Lib.ValueIdx

noncomputable section

namespace Cert.LibMiddleUnit

open Idealize.ShloMosaic Idealize.ShloMosaic.ValueIdx

/-- An `[a, b]` array cast to `[a, 1, b]` reads, at `(e, u, i)`, the operand at `(e, i)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (i : Fin b) :
    shapeCast ⟨3, ![a, 1, b]⟩ x h (ix3 e u i) = x (ix2 e i) :=
  shapeCast_apply x h _ _ (by
    rw [Shape.rowMajor_val_two, Shape.rowMajor_val_three]
    show e.val * b + i.val = (e.val * 1 + u.val) * b + i.val
    have hu : u.val = 0 := by have := u.isLt; omega
    rw [hu, Nat.mul_one, Nat.add_zero])

end Cert.LibMiddleUnit

end
-- ==== Proof.BlockSide.lean ====
/-
  What one grid point computes: the body's two results on a block of 256 batch rows are the specification's row
  functions of that block's rows.

  The body's results are given as index-by-index functions of its ten loaded blocks (the value leg's `E10`, `E11`). Read
  at row `p` of the block and column `h`:
    · the gate pre-activation at (p, j) is two 128-term products' entries plus the bias row's entry `j`: the row's `gate`;
    · the attention input part at (p, ·, h) is a 128-term product's entry, the same for every edge (a unit axis broadcast);
    · the attention skip part at (p, x', h): the 256 × 50 skip rows are laid out as 12800 rows, row p·50 + x' being skip
      row x' of batch row p, multiplied by the weights, and laid back;
    · the mask block's entry (p, x') is broadcast along the columns;
    · each of the two lane sums runs over the fifty edges x' at fixed (p, h).
  A change of float format is the identity on the extended reals, so the narrowing before each product disappears.
-/
import proofs.«143210_j40261023432818_1_alg».proof.Proof.Gen.KernelIdeal.Value
import proofs.«143210_j40261023432818_1_alg».proof.Proof.Spec
import proofs.«143210_j40261023432818_1_alg».proof.Proof.LibPlainMatmul
import proofs.«143210_j40261023432818_1_alg».proof.Proof.LibMiddleUnit
import Idealize.ShloMosaic.Lib.Pipeline.Value
import Idealize.ShloMosaic.Lib.ValueIdx
import Idealize.ShloMosaic.Lib.ValueLayout
import Idealize.ShloMosaic.PureOps.Ideal.Laws

noncomputable section

namespace Cert.SkipCell.Block

open Cert.KernelIdeal Cert.KernelIdeal.Gen Cert.SkipCell
open Idealize.ShloMosaic Idealize.ShloMosaic.ValueIdx

/-! ## Pointwise operations at an index (definitional) -/

theorem exp_at {s : Shape} (v : FVec Ideal s .f32) (i : s.Idx) : exp v i = Ideal.exp (v i) := rfl
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-! ## The three matrix products, each at (row, column) -/

/-- `[256, 128] · [128, 384]` into zero, at (p, j). -/
theorem gates_product (l : FVec Ideal S256x128 .bf16) (r : FVec Ideal S128x384 .bf16) (p : Fin 256) (j : Fin 384) :
    matmul dot_S256x128_S128x384_S256x384_1_0_0_1_n_n none l r (constant (F := Ideal) S256x384 .f32 0x00000000#32) (ix2 p j)
      = ∑ k : Fin 128, l (ix2 p k) * r (ix2 k j) :=
  LibPlainMatmul.matmul_zero_at dot_S256x128_S128x384_S256x384_1_0_0_1_n_n none rfl rfl
    (fun i q => by
      unfold DotDims.lhsIdx
      rw [dif_neg (show ¬(0 : Fin S256x128.rank) ∈ dot_S256x128_S128x384_S256x384_1_0_0_1_n_n.lhsBatch by decide),
        dif_pos (show (0 : Fin S256x128.rank) ∈ dot_S256x128_S128x384_S256x384_1_0_0_1_n_n.lhsNonContracting by decide)]
      rfl)
    (fun i q => dot_S256x128_S128x384_S256x384_1_0_0_1_n_n.lhsIdx_val_of_single rfl i q)
    (fun i q => dot_S256x128_S128x384_S256x384_1_0_0_1_n_n.rhsIdx_val_of_single rfl i q)
    (fun i q => by
      unfold DotDims.rhsIdx
      rw [dif_neg (show ¬(1 : Fin S128x384.rank) ∈ dot_S256x128_S128x384_S256x384_1_0_0_1_n_n.rhsBatch by decide),
        dif_pos (show (1 : Fin S128x384.rank) ∈ dot_S256x128_S128x384_S256x384_1_0_0_1_n_n.rhsNonContracting by decide)]
      rfl)
    l r p j

/-- `[256, 128] · [128, 128]` into zero, at (p, h). -/
theorem input_product (l : FVec Ideal S256x128 .bf16) (r : FVec Ideal S128x128 .bf16) (p : Fin 256) (h : Fin 128) :
    matmul dot_S256x128_S128x128_S256x128_1_0_0_1_n_n none l r (constant (F := Ideal) S256x128 .f32 0x00000000#32) (ix2 p h)
      = ∑ k : Fin 128, l (ix2 p k) * r (ix2 k h) :=
  LibPlainMatmul.matmul_zero_at dot_S256x128_S128x128_S256x128_1_0_0_1_n_n none rfl rfl
    (fun i q => by
      unfold DotDims.lhsIdx
      rw [dif_neg (show ¬(0 : Fin S256x128.rank) ∈ dot_S256x128_S128x128_S256x128_1_0_0_1_n_n.lhsBatch by decide),
        dif_pos (show (0 : Fin S256x128.rank) ∈ dot_S256x128_S128x128_S256x128_1_0_0_1_n_n.lhsNonContracting by decide)]
      rfl)
    (fun i q => dot_S256x128_S128x128_S256x128_1_0_0_1_n_n.lhsIdx_val_of_single rfl i q)
    (fun i q => dot_S256x128_S128x128_S256x128_1_0_0_1_n_n.rhsIdx_val_of_single rfl i q)
    (fun i q => by
      unfold DotDims.rhsIdx
      rw [dif_neg (show ¬(1 : Fin S128x128.rank) ∈ dot_S256x128_S128x128_S256x128_1_0_0_1_n_n.rhsBatch by decide),
        dif_pos (show (1 : Fin S128x128.rank) ∈ dot_S256x128_S128x128_S256x128_1_0_0_1_n_n.rhsNonContracting by decide)]
      rfl)
    l r p h

/-- `[12800, 128] · [128, 128]` into zero, at (q, h). -/
theorem skip_product (l : FVec Ideal S12800x128 .bf16) (r : FVec Ideal S128x128 .bf16) (q : Fin 12800) (h : Fin 128) :
    matmul dot_S12800x128_S128x128_S12800x128_1_0_0_1_n_n none l r (constant (F := Ideal) S12800x128 .f32 0x00000000#32) (ix2 q h)
      = ∑ k : Fin 128, l (ix2 q k) * r (ix2 k h) :=
  LibPlainMatmul.matmul_zero_at dot_S12800x128_S128x128_S12800x128_1_0_0_1_n_n none rfl rfl
    (fun i q => by
      unfold DotDims.lhsIdx
      rw [dif_neg (show ¬(0 : Fin S12800x128.rank) ∈ dot_S12800x128_S128x128_S12800x128_1_0_0_1_n_n.lhsBatch by decide),
        dif_pos (show (0 : Fin S12800x128.rank) ∈ dot_S12800x128_S128x128_S12800x128_1_0_0_1_n_n.lhsNonContracting by decide)]
      rfl)
    (fun i q => dot_S12800x128_S128x128_S12800x128_1_0_0_1_n_n.lhsIdx_val_of_single rfl i q)
    (fun i q => dot_S12800x128_S128x128_S12800x128_1_0_0_1_n_n.rhsIdx_val_of_single rfl i q)
    (fun i q => by
      unfold DotDims.rhsIdx
      rw [dif_neg (show ¬(1 : Fin S128x128.rank) ∈ dot_S12800x128_S128x128_S12800x128_1_0_0_1_n_n.rhsBatch by decide),
        dif_pos (show (1 : Fin S128x128.rank) ∈ dot_S12800x128_S128x128_S12800x128_1_0_0_1_n_n.rhsNonContracting by decide)]
      rfl)
    l r q h

section Loads
variable (P0 P1 : Vec Ideal S256x128 .f32) (P2 P3 : Vec Ideal S128x384 .f32) (P4 : Vec Ideal S1x384 .f32)
  (P5 : Vec Ideal S256x50x128 .f32) (P6 P7 : Vec Ideal S128x128 .f32) (P8 : Vec Ideal S1x128 .f32) (P9 : Vec Ideal S256x50 .f32)

/-! ## The gate pre-activation -/

/-- The bias row, cast to itself and broadcast down the 256 rows, at (p, j) is its entry `j`. -/
theorem bias_at (p : Fin 256) (j : Fin 384) :
    broadcastTo S256x384 (shapeCast S1x384 P4 shapeCasts_S1x384_S1x384) broadcasts_S1x384_S256x384 (ix2 p j)
      = P4 (ix2 (0 : Fin 1) j) := by
  rw [shapeCast_self]
  exact broadcastTo_1b_ab_apply P4 broadcasts_S1x384_S256x384 p j

/-- The gate pre-activation of the block at (p, j) is row `p`'s `gate` at column `j`. -/
theorem gate_at (p : Fin 256) (j : Fin 384) :
    k0_pay4 (F := Ideal) P0 P1 P2 P3 P4 (ix2 p j)
      = gate (fun k => P0 (ix2 p k)) (fun k => P1 (ix2 p k)) (fun k j => P2 (ix2 k j)) (fun k j => P3 (ix2 k j))
        (fun j => P4 (ix2 (0 : Fin 1) j)) j := by
  unfold k0_pay4 k0_pay3
  rw [addf_apply, addf_apply, gates_product, gates_product, bias_at]
  rfl

/-! ## The attention pre-activation's three parts and the mask, at (p, x', h) -/

/-- The input part: a product's entry (p, h), given a unit edge axis and broadcast along the fifty edges. -/
theorem input_part_at (p : Fin 256) (x' : Fin 50) (h : Fin 128) :
    broadcastTo S256x50x128 (k0_pay10 (F := Ideal) P0 P6) broadcasts_S256x1x128_S256x50x128 (ix3 p x' h)
      = ∑ k : Fin 128, P0 (ix2 p k) * P6 (ix2 k h) := by
  refine (broadcastTo_apply (k0_pay10 (F := Ideal) P0 P6) broadcasts_S256x1x128_S256x50x128 (ix3 p x' h) (ix3 p (0 : Fin 1) h)
    (fun a => by match a with | ⟨0, _⟩ => rfl | ⟨1, _⟩ => rfl | ⟨2, _⟩ => rfl)).trans ?_
  unfold k0_pay10 k0_pay3
  rw [LibMiddleUnit.shapeCast_ab_a1b_apply, input_product]
  rfl

/-- Row p·50 + x' of the 12800-row layout. -/
abbrev flatRow (p : Fin 256) (x' : Fin 50) : Fin 12800 :=
  ⟨p.val * 50 + x'.val, by have := p.isLt; have := x'.isLt; omega⟩

/-- The skip part: laid out as 12800 rows, multiplied, laid back; at (p, x', h) it is skip row x' of batch row p against
    column h of the weights. -/
theorem skip_part_at (p : Fin 256) (x' : Fin 50) (h : Fin 128) :
    k0_pay8 (F := Ideal) P5 P7 (ix3 p x' h) = ∑ k : Fin 128, P5 (ix3 p x' k) * P7 (ix2 k h) := by
  unfold k0_pay8
  refine (shapeCast_apply _ shapeCasts_S12800x128_S256x50x128 (ix3 p x' h) (ix2 (flatRow p x') h) (by
    rw [Shape.rowMajor_val_two, Shape.rowMajor_val_three]; rfl)).trans ?_
  rw [skip_product]
  refine Finset.sum_congr rfl fun k _ => ?_
  refine congrArg (· * _) ?_
  exact shapeCast_apply _ shapeCasts_S256x50x128_S12800x128 (ix2 (flatRow p x') k) (ix3 p x' k) (by
    rw [Shape.rowMajor_val_two, Shape.rowMajor_val_three]; rfl)

/-- The attention bias row, given two unit axes and broadcast over rows and edges, at (p, x', h) is its entry `h`. -/
theorem abias_at (p : Fin 256) (x' : Fin 50) (h : Fin 128) :
    broadcastTo S256x50x128 (shapeCast S1x1x128 (shapeCast S1x128 P8 shapeCasts_S1x128_S1x128) shapeCasts_S1x128_S1x1x128)
        broadcasts_S1x1x128_S256x50x128 (ix3 p x' h)
      = P8 (ix2 (0 : Fin 1) h) := by
  refine (broadcastTo_apply _ broadcasts_S1x1x128_S256x50x128 (ix3 p x' h) (ix3 (0 : Fin 1) (0 : Fin 1) h)
    (fun a => by match a with | ⟨0, _⟩ => rfl | ⟨1, _⟩ => rfl | ⟨2, _⟩ => rfl)).trans ?_
  rw [shapeCast_ab_1ab_apply, shapeCast_self]

/-- The mask block, given a unit column axis and broadcast along the columns, at (p, x', h) is its entry (p, x'). -/
theorem mask_at (p : Fin 256) (x' : Fin 50) (h : Fin 128) :
    broadcastTo S256x50x128 (shapeCast S256x50x1 (shapeCast S256x50 P9 shapeCasts_S256x50_S256x50) shapeCasts_S256x50_S256x50x1)
        broadcasts_S256x50x1_S256x50x128 (ix3 p x' h)
      = P9 (ix2 p x') := by
  refine (broadcastTo_apply _ broadcasts_S256x50x1_S256x50x128 (ix3 p x' h) (ix3 p x' (0 : Fin 1))
    (fun a => by match a with | ⟨0, _⟩ => rfl | ⟨1, _⟩ => rfl | ⟨2, _⟩ => rfl)).trans ?_
  rw [shapeCast_self]
  exact shapeCast_apply P9 shapeCasts_S256x50_S256x50x1 (ix3 p x' (0 : Fin 1)) (ix2 p x') (by
    rw [Shape.rowMajor_val_two, Shape.rowMajor_val_three]
    show p.val * 50 + x'.val = (p.val * 50 + x'.val) * 1 + 0
    omega)

/-- The masked exponential weight of the block at (p, x', h) is row `p`'s `edge`. -/
theorem edge_at (p : Fin 256) (x' : Fin 50) (h : Fin 128) :
    (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128)) (ix3 p x' h)
      = edge (fun k => P0 (ix2 p k)) (fun x' k => P5 (ix3 p x' k)) (fun x' => P9 (ix2 p x'))
        (fun k h => P6 (ix2 k h)) (fun k h => P7 (ix2 k h)) (fun h => P8 (ix2 (0 : Fin 1) h)) x' h := by
  rw [mulf_apply, exp_at, logistic_at, addf_apply, addf_apply, input_part_at, skip_part_at, abias_at, mask_at]
  rfl

/-- The skip entry times that weight, at (p, x', h). -/
theorem weighted_at (p : Fin 256) (x' : Fin 50) (h : Fin 128) :
    mulf P5 (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128)) (ix3 p x' h)
      = P5 (ix3 p x' h) * edge (fun k => P0 (ix2 p k)) (fun x' k => P5 (ix3 p x' k)) (fun x' => P9 (ix2 p x'))
        (fun k h => P6 (ix2 k h)) (fun k h => P7 (ix2 k h)) (fun h => P8 (ix2 (0 : Fin 1) h)) x' h := by
  show P5 (ix3 p x' h) * (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128)) (ix3 p x' h) = _
  rw [edge_at]

/-! ## The lane sums: over the fifty edges at fixed (p, h) -/

/-- A sum over the middle axis of a `[256, 50, 128]` vector into the zero word, at (p, h), is the sum over the fifty
    edges x' of the vector at (p, x', h). -/
theorem edges_sum (src : FVec Ideal S256x50x128 .f32) (p : Fin 256) (h : Fin 128) :
    multiReduction .add [1] S256x128 src 0x00000000#32 reduces_S256x50x128_S256x128 (.inl rfl) rfl (ix2 p h)
      = ∑ x' : Fin 50, src (ix3 p x' h) := by
  refine (Ideal.multiReduction_add_single src 0x00000000#32 reduces_S256x50x128_S256x128 (.inl rfl) rfl (ix2 p h)).trans ?_
  refine Finset.sum_congr rfl fun x' _ => congrArg src ?_
  funext a
  match a with
  | ⟨0, _⟩ => rfl
  | ⟨1, _⟩ => rfl
  | ⟨2, _⟩ => rfl

/-! ## The two results of the block -/

/-- The cell block at (p, h) is row `p`'s `cell` at column `h`. -/
theorem cell_at (p : Fin 256) (h : Fin 128) :
    Value.E11 (F := Ideal) P0 P1 P2 P3 P4 P5 P6 P7 P8 P9 (ix2 p h)
      = cell (fun k => P0 (ix2 p k)) (fun k => P1 (ix2 p k)) (fun x' k => P5 (ix3 p x' k)) (fun x' => P9 (ix2 p x'))
        (fun k j => P2 (ix2 k j)) (fun k j => P3 (ix2 k j)) (fun j => P4 (ix2 (0 : Fin 1) j))
        (fun k h => P6 (ix2 k h)) (fun k h => P7 (ix2 k h)) (fun h => P8 (ix2 (0 : Fin 1) h)) h := by
  have e0 : Value.ix11_0 (ix2 p h) = ix2 p (band2 h) := funext fun a => by match a with | ⟨0, _⟩ => rfl | ⟨1, _⟩ => rfl
  have e1 : Value.ix11_1 (ix2 p h) = ix2 p (band0 h) := funext fun a => by match a with | ⟨0, _⟩ => rfl | ⟨1, _⟩ => rfl
  have e2 : Value.ix11_2 (ix2 p h) = ix2 p h := funext fun a => by match a with | ⟨0, _⟩ => rfl | ⟨1, _⟩ => rfl
  have e3 : Value.ix11_3 (ix2 p h) = ix2 p (band0 h) := funext fun a => by match a with | ⟨0, _⟩ => rfl | ⟨1, _⟩ => rfl
  have e4 : Value.ix11_4 (ix2 p h) = ix2 p h := funext fun a => by match a with | ⟨0, _⟩ => rfl | ⟨1, _⟩ => rfl
  show FloatOps.divf (FloatOps.addf (FloatOps.mulf (FloatOps.tanh (k0_pay4 P0 P1 P2 P3 P4 (Value.ix11_0 (ix2 p h))))
        (FloatOps.exp (FloatOps.logistic (k0_pay4 P0 P1 P2 P3 P4 (Value.ix11_1 (ix2 p h))))))
        (multiReduction .add [1] S256x128 (mulf P5 (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128))) 0x00000000#32 reduces_S256x50x128_S256x128 (.inl rfl) rfl (Value.ix11_2 (ix2 p h))))
      (FloatOps.addf (FloatOps.exp (FloatOps.logistic (k0_pay4 P0 P1 P2 P3 P4 (Value.ix11_3 (ix2 p h)))))
        (multiReduction .add [1] S256x128 (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128)) 0x00000000#32 reduces_S256x50x128_S256x128 (.inl rfl) rfl (Value.ix11_4 (ix2 p h)))) = _
  rw [e0, e1, e2, e3, e4, gate_at, gate_at, edges_sum, edges_sum]
  simp only [weighted_at, edge_at]
  rfl

/-- The hidden block at (p, h) is row `p`'s `hidden` at column `h`. -/
theorem hidden_at (p : Fin 256) (h : Fin 128) :
    Value.E10 (F := Ideal) P0 P1 P2 P3 P4 P5 P6 P7 P8 P9 (ix2 p h)
      = hidden (fun k => P0 (ix2 p k)) (fun k => P1 (ix2 p k)) (fun x' k => P5 (ix3 p x' k)) (fun x' => P9 (ix2 p x'))
        (fun k j => P2 (ix2 k j)) (fun k j => P3 (ix2 k j)) (fun j => P4 (ix2 (0 : Fin 1) j))
        (fun k h => P6 (ix2 k h)) (fun k h => P7 (ix2 k h)) (fun h => P8 (ix2 (0 : Fin 1) h)) h := by
  have e0 : Value.ix10_0 (ix2 p h) = ix2 p (band1 h) := funext fun a => by match a with | ⟨0, _⟩ => rfl | ⟨1, _⟩ => rfl
  have e1 : Value.ix10_1 (ix2 p h) = ix2 p (band2 h) := funext fun a => by match a with | ⟨0, _⟩ => rfl | ⟨1, _⟩ => rfl
  have e2 : Value.ix10_2 (ix2 p h) = ix2 p (band0 h) := funext fun a => by match a with | ⟨0, _⟩ => rfl | ⟨1, _⟩ => rfl
  have e3 : Value.ix10_3 (ix2 p h) = ix2 p h := funext fun a => by match a with | ⟨0, _⟩ => rfl | ⟨1, _⟩ => rfl
  have e4 : Value.ix10_4 (ix2 p h) = ix2 p (band0 h) := funext fun a => by match a with | ⟨0, _⟩ => rfl | ⟨1, _⟩ => rfl
  have e5 : Value.ix10_5 (ix2 p h) = ix2 p h := funext fun a => by match a with | ⟨0, _⟩ => rfl | ⟨1, _⟩ => rfl
  show FloatOps.mulf (FloatOps.logistic (k0_pay4 P0 P1 P2 P3 P4 (Value.ix10_0 (ix2 p h))))
      (FloatOps.tanh (FloatOps.divf (FloatOps.addf (FloatOps.mulf (FloatOps.tanh (k0_pay4 P0 P1 P2 P3 P4 (Value.ix10_1 (ix2 p h))))
        (FloatOps.exp (FloatOps.logistic (k0_pay4 P0 P1 P2 P3 P4 (Value.ix10_2 (ix2 p h))))))
        (multiReduction .add [1] S256x128 (mulf P5 (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128))) 0x00000000#32 reduces_S256x50x128_S256x128 (.inl rfl) rfl (Value.ix10_3 (ix2 p h))))
      (FloatOps.addf (FloatOps.exp (FloatOps.logistic (k0_pay4 P0 P1 P2 P3 P4 (Value.ix10_4 (ix2 p h)))))
        (multiReduction .add [1] S256x128 (mulf (exp (logistic (addf (addf (broadcastTo S256x50x128 (k0_pay10 P0 P6) broadcasts_S256x1x128_S256x50x128) (k0_pay8 P5 P7)) (broadcastTo S256x50x128 (shapeCast S1x1x128 (shapeCast S1x128 P8 shapeCasts_S1x128_S1x128) shapeCasts_S1x128_S1x1x128) broadcasts_S1x1x128_S256x50x128)))) (broadcastTo S256x50x128 (shapeCast S256x50x1 (shapeCast S256x50 P9 shapeCasts_S256x50_S256x50) shapeCasts_S256x50_S256x50x1) broadcasts_S256x50x1_S256x50x128)) 0x00000000#32 reduces_S256x50x128_S256x128 (.inl rfl) rfl (Value.ix10_5 (ix2 p h)))))) = _
  rw [e0, e1, e2, e3, e4, e5, gate_at, gate_at, gate_at, edges_sum, edges_sum]
  simp only [weighted_at, edge_at]
  rfl

end Loads

end Cert.SkipCell.Block

end
-- ==== Proof.ArraySide.lean ====
/-
  From blocks to arrays: after the kernel's run each output array is the specification's array function of the ten
  arguments.

  The grid has 64 points; point `t` stages rows 256·t … 256·t + 255 of each batched array (input, hidden, skip rows,
  mask) and of both outputs, and the whole of each weight array. So entry (p, ·) of a batched block at point `t` is
  entry (256·t + p, ·) of its array, and a weight block is its array. Three staged arrays are written by host operations
  before the call rather than being arguments: the mask (an iota and the edge counts, broadcast, compared, converted) and
  the two bias vectors given a leading unit axis; each is read back to the argument it came from. With the block lemma
  this says: what point `t` writes back is block `t` of the specification's array function; the 64 blocks cover all 16384
  rows (row `r` lies in block `r / 256`); hence the array after the run is that function.
-/
import proofs.«143210_j40261023432818_1_alg».proof.Proof.Gen.KernelIdeal.Value
import proofs.«143210_j40261023432818_1_alg».proof.Proof.Spec
import proofs.«143210_j40261023432818_1_alg».proof.Proof.BlockSide
import Idealize.ShloMosaic.Lib.Pipeline.Value
import Idealize.ShloMosaic.Lib.ValueIdx
import Idealize.ShloMosaic.Lib.ValueLayout
import Idealize.ShloMosaic.Lib.StableHlo.Run

noncomputable section

namespace Cert.SkipCell.Arrays

open Cert.KernelIdeal Cert.KernelIdeal.Gen Cert.SkipCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The printed index maps, decided over the 64 grid points -/

/-- Every batched window's block index is (the point's, 0[, 0]), the same row block as the first output's, and there are
    at most 64 row blocks. -/
theorem idx_facts : ∀ t : Fin cfg0.N,
    win0_10.index t (0 : Fin 2) ≤ 63 ∧ win0_10.index t (1 : Fin 2) = 0
    ∧ win0_11.index t (0 : Fin 2) = win0_10.index t (0 : Fin 2) ∧ win0_11.index t (1 : Fin 2) = 0
    ∧ win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 3) = win0_10.index t (0 : Fin 2) ∧ win0_2.index t (1 : Fin 3) = 0 ∧ win0_2.index t (2 : Fin 3) = 0
    ∧ win0_3.index t (0 : Fin 2) = win0_10.index t (0 : Fin 2) ∧ win0_3.index t (1 : Fin 2) = 0 :=
  (by decide +kernel : ∀ t : Fin grid0.N, _)

/-- Every weight window's block index is (0, 0) at every point: the block is the whole array. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every one of the 64 row blocks is some point's. -/
theorem idx_onto : ∀ q : Fin 64, ∃ t : Fin cfg0.N, win0_10.index t (0 : Fin 2) = q.val :=
  (by decide +kernel : ∀ q : Fin 64, ∃ t : Fin grid0.N, win0_10.index t (0 : Fin 2) = q.val)

/-- The array row under row `p` of point `t`'s blocks. -/
def rowOf (t : Fin cfg0.N) (p : Fin 256) : Fin 16384 :=
  ⟨win0_10.index t (0 : Fin 2) * 256 + p.val, by have := (idx_facts t).1; have := p.isLt; omega⟩

/-! ## The three staged arrays that host operations wrote -/

/-- The mask array at (b, x') is whether edge `x'` is below the count of row `b`, as a float. -/
theorem mask_array (c : Dev nD) (b : Fin 16384) (x' : Fin 50) :
    (V m c main_v6 : S16384x50.Idx → EReal) (ix2 b x') = present (m ((c : Thread nD τ).loc main_arg2)) b x' := by
  have e : (V m c main_v6 : S16384x50.Idx → EReal)
      = uitofp (F := Ideal) .f32 (cmpi .slt
          (broadcastInDim S16384x50 ![0, 1] bcast_S1x50_S16384x50_0_1 (broadcastInDim S1x50 ![1] bcast_S50_S1x50_1 (iotaInDim S50 32 0)))
          (broadcastInDim S16384x50 ![0, 1] bcast_S16384x1_S16384x50_0_1
            (broadcastInDim S16384x1 ![0] bcast_S16384_S16384x1_0 (m ((c : Thread nD τ).loc main_arg2))))) := by
    dsimp only [Gen.V, Gen.hostOps0]; after_results; all_goals rfl
  rw [e]
  show FloatOps.uitofp (F := Ideal) .f32 (IntOp.cmpi .slt
      (broadcastInDim S16384x50 ![0, 1] bcast_S1x50_S16384x50_0_1 (broadcastInDim S1x50 ![1] bcast_S50_S1x50_1 (iotaInDim S50 32 0)) (ix2 b x'))
      (broadcastInDim S16384x50 ![0, 1] bcast_S16384x1_S16384x50_0_1
        (broadcastInDim S16384x1 ![0] bcast_S16384_S16384x1_0 (m ((c : Thread nD τ).loc main_arg2))) (ix2 b x'))) = _
  rw [broadcastInDim_apply _ bcast_S1x50_S16384x50_0_1 _ (ix2 b x') (ix2 (0 : Fin 1) x')
      (fun a => by match a with | ⟨0, _⟩ => rfl | ⟨1, _⟩ => rfl),
    broadcastInDim_apply _ bcast_S50_S1x50_1 _ (ix2 (0 : Fin 1) x') (ix1 x') (fun a => by match a with | ⟨0, _⟩ => rfl),
    broadcastInDim_apply _ bcast_S16384x1_S16384x50_0_1 _ (ix2 b x') (ix2 b (0 : Fin 1))
      (fun a => by match a with | ⟨0, _⟩ => rfl | ⟨1, _⟩ => rfl),
    broadcastInDim_apply _ bcast_S16384_S16384x1_0 _ (ix2 b (0 : Fin 1)) (ix1 b) (fun a => by match a with | ⟨0, _⟩ => rfl)]
  rfl

/-- The gate bias given a leading unit axis, at (0, j), is the argument's entry `j`. -/
theorem bias_array (c : Dev nD) (j : Fin 384) :
    (V m c main_v7 : S1x384.Idx → EReal) (ix2 (0 : Fin 1) j) = (m ((c : Thread nD τ).loc main_arg7)) (ix1 j) := by
  have e : (V m c main_v7 : S1x384.Idx → EReal) = shapeCast S1x384 (m ((c : Thread nD τ).loc main_arg7)) shapeCasts_S384_S1x384 := by
    dsimp only [Gen.V, Gen.hostOps0]; after_results; all_goals rfl
  rw [e]
  exact shapeCast_a_1a_apply _ shapeCasts_S384_S1x384 (0 : Fin 1) j

/-- The attention bias given a leading unit axis, at (0, h), is the argument's entry `h`. -/
theorem abias_array (c : Dev nD) (h : Fin 128) :
    (V m c main_v8 : S1x128.Idx → EReal) (ix2 (0 : Fin 1) h) = (m ((c : Thread nD τ).loc main_arg10)) (ix1 h) := by
  have e : (V m c main_v8 : S1x128.Idx → EReal) = shapeCast S1x128 (m ((c : Thread nD τ).loc main_arg10)) shapeCasts_S128_S1x128 := by
    dsimp only [Gen.V, Gen.hostOps0]; after_results; all_goals rfl
  rw [e]
  exact shapeCast_a_1a_apply _ shapeCasts_S128_S1x128 (0 : Fin 1) h

/-! ## Each window's block at point `t`, in terms of the arguments -/

section Blocks
variable (c : Dev nD) (t : Fin cfg0.N)

/-- Input block: row `p` is the argument's row `rowOf t p`. -/
theorem inp_row (p : Fin 256) (k : Fin 128) : iblk m c 0 t (ix2 p k) = (m ((c : Thread nD τ).loc main_arg0)) (ix2 (rowOf t p) k) := by
  refine Eq.trans ?_ (congrFun (V_main_arg0 m c) (ix2 (rowOf t p) k))
  show V m c main_arg0 (((cfg0.win 0).blk t).view.emb (ix2 p k)) = V m c main_arg0 (ix2 (rowOf t p) k)
  refine congrArg (V m c main_arg0) (funext fun a => Fin.ext ?_)
  obtain ⟨_, _, _, _, e0, e1, _⟩ := idx_facts t
  match a with
  | ⟨0, _⟩ => show win0_0.index t (0 : Fin 2) * 256 + 1 * p.val = win0_10.index t (0 : Fin 2) * 256 + p.val; omega
  | ⟨1, _⟩ => show win0_0.index t (1 : Fin 2) * 128 + 1 * k.val = k.val; omega

/-- Hidden block: row `p` is the argument's row `rowOf t p`. -/
theorem hid_row (p : Fin 256) (k : Fin 128) : iblk m c 1 t (ix2 p k) = (m ((c : Thread nD τ).loc main_arg3)) (ix2 (rowOf t p) k) := by
  refine Eq.trans ?_ (congrFun (V_main_arg3 m c) (ix2 (rowOf t p) k))
  show V m c main_arg3 (((cfg0.win 1).blk t).view.emb (ix2 p k)) = V m c main_arg3 (ix2 (rowOf t p) k)
  refine congrArg (V m c main_arg3) (funext fun a => Fin.ext ?_)
  obtain ⟨_, _, _, _, _, _, e0, e1, _⟩ := idx_facts t
  match a with
  | ⟨0, _⟩ => show win0_1.index t (0 : Fin 2) * 256 + 1 * p.val = win0_10.index t (0 : Fin 2) * 256 + p.val; omega
  | ⟨1, _⟩ => show win0_1.index t (1 : Fin 2) * 128 + 1 * k.val = k.val; omega

/-- Skip block: rows (p, x') are the argument's rows (`rowOf t p`, x'). -/
theorem skip_row (p : Fin 256) (x' : Fin 50) (k : Fin 128) :
    iblk m c 2 t (ix3 p x' k) = (m ((c : Thread nD τ).loc main_arg1)) (ix3 (rowOf t p) x' k) := by
  refine Eq.trans ?_ (congrFun (V_main_arg1 m c) (ix3 (rowOf t p) x' k))
  show V m c main_arg1 (((cfg0.win 2).blk t).view.emb (ix3 p x' k)) = V m c main_arg1 (ix3 (rowOf t p) x' k)
  refine congrArg (V m c main_arg1) (funext fun a => Fin.ext ?_)
  obtain ⟨_, _, _, _, _, _, _, _, e0, e1, e2, _⟩ := idx_facts t
  match a with
  | ⟨0, _⟩ => show win0_2.index t (0 : Fin 3) * 256 + 1 * p.val = win0_10.index t (0 : Fin 2) * 256 + p.val; omega
  | ⟨1, _⟩ => show win0_2.index t (1 : Fin 3) * 50 + 1 * x'.val = x'.val; omega
  | ⟨2, _⟩ => show win0_2.index t (2 : Fin 3) * 128 + 1 * k.val = k.val; omega

/-- Mask block: entry (p, x') is whether edge `x'` is present in the argument's row `rowOf t p`. -/
theorem mask_row (p : Fin 256) (x' : Fin 50) :
    iblk m c 3 t (ix2 p x') = present (m ((c : Thread nD τ).loc main_arg2)) (rowOf t p) x' := by
  refine Eq.trans ?_ (mask_array m c (rowOf t p) x')
  show V m c main_v6 (((cfg0.win 3).blk t).view.emb (ix2 p x')) = V m c main_v6 (ix2 (rowOf t p) x')
  refine congrArg (V m c main_v6) (funext fun a => Fin.ext ?_)
  obtain ⟨_, _, _, _, _, _, _, _, _, _, _, e0, e1⟩ := idx_facts t
  match a with
  | ⟨0, _⟩ => show win0_3.index t (0 : Fin 2) * 256 + 1 * p.val = win0_10.index t (0 : Fin 2) * 256 + p.val; omega
  | ⟨1, _⟩ => show win0_3.index t (1 : Fin 2) * 50 + 1 * x'.val = x'.val; omega

/-- The gate input weights' block is the argument. -/
theorem wih_entry (k : Fin 128) (j : Fin 384) : iblk m c 4 t (ix2 k j) = (m ((c : Thread nD τ).loc main_arg5)) (ix2 k j) := by
  refine Eq.trans ?_ (congrFun (V_main_arg5 m c) (ix2 k j))
  show V m c main_arg5 (((cfg0.win 4).blk t).view.emb (ix2 k j)) = V m c main_arg5 (ix2 k j)
  refine congrArg (V m c main_arg5) (funext fun a => Fin.ext ?_)
  obtain ⟨e0, e1, _⟩ := idx_whole t
  match a with
  | ⟨0, _⟩ => show win0_4.index t (0 : Fin 2) * 128 + 1 * k.val = k.val; omega
  | ⟨1, _⟩ => show win0_4.index t (1 : Fin 2) * 384 + 1 * j.val = j.val; omega

/-- The gate hidden weights' block is the argument. -/
theorem whh_entry (k : Fin 128) (j : Fin 384) : iblk m c 5 t (ix2 k j) = (m ((c : Thread nD τ).loc main_arg6)) (ix2 k j) := by
  refine Eq.trans ?_ (congrFun (V_main_arg6 m c) (ix2 k j))
  show V m c main_arg6 (((cfg0.win 5).blk t).view.emb (ix2 k j)) = V m c main_arg6 (ix2 k j)
  refine congrArg (V m c main_arg6) (funext fun a => Fin.ext ?_)
  obtain ⟨_, _, e0, e1, _⟩ := idx_whole t
  match a with
  | ⟨0, _⟩ => show win0_5.index t (0 : Fin 2) * 128 + 1 * k.val = k.val; omega
  | ⟨1, _⟩ => show win0_5.index t (1 : Fin 2) * 384 + 1 * j.val = j.val; omega

/-- The gate bias block's entry (0, j) is the argument's entry `j`. -/
theorem bias_entry (j : Fin 384) : iblk m c 6 t (ix2 (0 : Fin 1) j) = (m ((c : Thread nD τ).loc main_arg7)) (ix1 j) := by
  refine Eq.trans ?_ (bias_array m c j)
  show V m c main_v7 (((cfg0.win 6).blk t).view.emb (ix2 (0 : Fin 1) j)) = V m c main_v7 (ix2 (0 : Fin 1) j)
  refine congrArg (V m c main_v7) (funext fun a => Fin.ext ?_)
  obtain ⟨_, _, _, _, e0, e1, _⟩ := idx_whole t
  match a with
  | ⟨0, _⟩ => show win0_6.index t (0 : Fin 2) * 1 + 1 * 0 = 0; omega
  | ⟨1, _⟩ => show win0_6.index t (1 : Fin 2) * 384 + 1 * j.val = j.val; omega

/-- The attention input weights' block is the argument. -/
theorem aih_entry (k : Fin 128) (h : Fin 128) : iblk m c 7 t (ix2 k h) = (m ((c : Thread nD τ).loc main_arg8)) (ix2 k h) := by
  refine Eq.trans ?_ (congrFun (V_main_arg8 m c) (ix2 k h))
  show V m c main_arg8 (((cfg0.win 7).blk t).view.emb (ix2 k h)) = V m c main_arg8 (ix2 k h)
  refine congrArg (V m c main_arg8) (funext fun a => Fin.ext ?_)
  obtain ⟨_, _, _, _, _, _, e0, e1, _⟩ := idx_whole t
  match a with
  | ⟨0, _⟩ => show win0_7.index t (0 : Fin 2) * 128 + 1 * k.val = k.val; omega
  | ⟨1, _⟩ => show win0_7.index t (1 : Fin 2) * 128 + 1 * h.val = h.val; omega

/-- The attention skip weights' block is the argument. -/
theorem ahh_entry (k : Fin 128) (h : Fin 128) : iblk m c 8 t (ix2 k h) = (m ((c : Thread nD τ).loc main_arg9)) (ix2 k h) := by
  refine Eq.trans ?_ (congrFun (V_main_arg9 m c) (ix2 k h))
  show V m c main_arg9 (((cfg0.win 8).blk t).view.emb (ix2 k h)) = V m c main_arg9 (ix2 k h)
  refine congrArg (V m c main_arg9) (funext fun a => Fin.ext ?_)
  obtain ⟨_, _, _, _, _, _, _, _, e0, e1, _⟩ := idx_whole t
  match a with
  | ⟨0, _⟩ => show win0_8.index t (0 : Fin 2) * 128 + 1 * k.val = k.val; omega
  | ⟨1, _⟩ => show win0_8.index t (1 : Fin 2) * 128 + 1 * h.val = h.val; omega

/-- The attention bias block's entry (0, h) is the argument's entry `h`. -/
theorem abias_entry (h : Fin 128) : iblk m c 9 t (ix2 (0 : Fin 1) h) = (m ((c : Thread nD τ).loc main_arg10)) (ix1 h) := by
  refine Eq.trans ?_ (abias_array m c h)
  show V m c main_v8 (((cfg0.win 9).blk t).view.emb (ix2 (0 : Fin 1) h)) = V m c main_v8 (ix2 (0 : Fin 1) h)
  refine congrArg (V m c main_v8) (funext fun a => Fin.ext ?_)
  obtain ⟨_, _, _, _, _, _, _, _, _, _, e0, e1⟩ := idx_whole t
  match a with
  | ⟨0, _⟩ => show win0_9.index t (0 : Fin 2) * 1 + 1 * 0 = 0; omega
  | ⟨1, _⟩ => show win0_9.index t (1 : Fin 2) * 128 + 1 * h.val = h.val; omega

end Blocks

/-! ## What point `t` writes back is block `t` of the specification's array function -/

/-- The hidden output. -/
theorem flushed_hidden (c : Dev nD) (t : Fin cfg0.N) :
    (dats m 0 c).flushed 10 t = ((cfg0.win 10).blk t).view.read (Elt Ideal) (hiddenArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed10]
  unfold out0_10
  funext j
  obtain ⟨p, h, rfl⟩ : ∃ (p : Fin 256) (h : Fin 128), j = ix2 p h := ⟨j 0, j 1, eq_ix2 j⟩
  refine (Value.canon10_eq _ _ _ _ _ _ _ _ _ _ (ix2 p h)).trans ?_
  simp only [View.ld_unit_zero (S := S256x128) hz2, View.ld_unit_zero (S := S128x384) hz2, View.ld_unit_zero (S := S1x384) hz2,
    View.ld_unit_zero (S := S128x128) hz2, View.ld_unit_zero (S := S256x50x128) hz3, View.ld_unit_zero (S := S1x128) hz2,
    View.ld_unit_zero (S := S256x50) hz2]
  refine (Block.hidden_at (iblk m c 0 t) (iblk m c 1 t) (iblk m c 4 t) (iblk m c 5 t) (iblk m c 6 t) (iblk m c 2 t) (iblk m c 7 t) (iblk m c 8 t)
    (iblk m c 9 t) (iblk m c 3 t) p h).trans ?_
  -- the output block's index (p, h) sits at array row `rowOf t p`, column `h`
  have hemb : ((cfg0.win 10).blk t).view.emb (ix2 p h) = ix2 (rowOf t p) h := by
    obtain ⟨_, f1, f2, f3, _⟩ := idx_facts t
    funext a; apply Fin.ext
    match a with
    | ⟨0, _⟩ => show win0_10.index t (0 : Fin 2) * 256 + 1 * p.val = win0_10.index t (0 : Fin 2) * 256 + p.val; omega
    | ⟨1, _⟩ => show win0_10.index t (1 : Fin 2) * 128 + 1 * h.val = h.val; omega
  show _ = hiddenArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 10).blk t).view.emb (ix2 p h))
  rw [hemb]
  unfold hiddenArr
  simp only [inp_row, hid_row, skip_row, mask_row, wih_entry, whh_entry, bias_entry, aih_entry, ahh_entry, abias_entry]

/-- The cell output. -/
theorem flushed_cell (c : Dev nD) (t : Fin cfg0.N) :
    (dats m 0 c).flushed 11 t = ((cfg0.win 11).blk t).view.read (Elt Ideal) (cellArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed11]
  unfold out0_11
  funext j
  obtain ⟨p, h, rfl⟩ : ∃ (p : Fin 256) (h : Fin 128), j = ix2 p h := ⟨j 0, j 1, eq_ix2 j⟩
  refine (Value.canon11_eq _ _ _ _ _ _ _ _ _ _ (ix2 p h)).trans ?_
  simp only [View.ld_unit_zero (S := S256x128) hz2, View.ld_unit_zero (S := S128x384) hz2, View.ld_unit_zero (S := S1x384) hz2,
    View.ld_unit_zero (S := S128x128) hz2, View.ld_unit_zero (S := S256x50x128) hz3, View.ld_unit_zero (S := S1x128) hz2,
    View.ld_unit_zero (S := S256x50) hz2]
  refine (Block.cell_at (iblk m c 0 t) (iblk m c 1 t) (iblk m c 4 t) (iblk m c 5 t) (iblk m c 6 t) (iblk m c 2 t) (iblk m c 7 t) (iblk m c 8 t)
    (iblk m c 9 t) (iblk m c 3 t) p h).trans ?_
  -- the output block's index (p, h) sits at array row `rowOf t p`, column `h`
  have hemb : ((cfg0.win 11).blk t).view.emb (ix2 p h) = ix2 (rowOf t p) h := by
    obtain ⟨_, f1, f2, f3, _⟩ := idx_facts t
    funext a; apply Fin.ext
    match a with
    | ⟨0, _⟩ => show win0_11.index t (0 : Fin 2) * 256 + 1 * p.val = win0_10.index t (0 : Fin 2) * 256 + p.val; omega
    | ⟨1, _⟩ => show win0_11.index t (1 : Fin 2) * 128 + 1 * h.val = h.val; omega
  show _ = cellArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 p h))
  rw [hemb]
  unfold cellArr
  simp only [inp_row, hid_row, skip_row, mask_row, wih_entry, whh_entry, bias_entry, aih_entry, ahh_entry, abias_entry]

/-! ## The blocks cover the arrays -/

/-- An index of the first output array is in point `t`'s block iff each coordinate is in the block's range on its axis. -/
theorem mem_block_hidden (t : Fin cfg0.N) (i : S16384x128.Idx) :
    i ∈ ((cfg0.win 10).blk t).view.set ↔ ∀ a : Fin 2, win0_10.index t a * S256x128.size a ≤ (i a).val
      ∧ (i a).val < win0_10.index t a * S256x128.size a + S256x128.size a := by
  show i ∈ ((View.whole main_v9_0).slice (win0_10.rect t)).set ↔ _
  rw [View.set_slice_whole, Rect.mem_set_unit]
  exact Iff.rfl

/-- The same for the second output array. -/
theorem mem_block_cell (t : Fin cfg0.N) (i : S16384x128.Idx) :
    i ∈ ((cfg0.win 11).blk t).view.set ↔ ∀ a : Fin 2, win0_11.index t a * S256x128.size a ≤ (i a).val
      ∧ (i a).val < win0_11.index t a * S256x128.size a + S256x128.size a := by
  show i ∈ ((View.whole main_v9_1).slice (win0_11.rect t)).set ↔ _
  rw [View.set_slice_whole, Rect.mem_set_unit]
  exact Iff.rfl

/-- Row `r` of the first output lies in the block of the point whose row block is `r / 256`. -/
theorem cover_hidden (i : S16384x128.Idx) :
    ∃ t : Fin cfg0.N, (cfg0.win 10).flush t = true ∧ i ∈ ((cfg0.win 10).blk t).view.set := by
  have hi0 : (i 0).val < 16384 := (i 0).isLt
  have hi1 : (i 1).val < 128 := (i 1).isLt
  obtain ⟨t, q0⟩ := idx_onto ⟨(i 0).val / 256, by omega⟩
  have q0' : win0_10.index t (0 : Fin 2) = (i 0).val / 256 := q0
  obtain ⟨_, f1, _⟩ := idx_facts t
  refine ⟨t, flush0_10 t, ?_⟩
  rw [mem_block_hidden]
  intro a
  match a with
  | ⟨0, _⟩ =>
    show win0_10.index t (0 : Fin 2) * 256 ≤ (i 0).val ∧ (i 0).val < win0_10.index t (0 : Fin 2) * 256 + 256
    omega
  | ⟨1, _⟩ =>
    show win0_10.index t (1 : Fin 2) * 128 ≤ (i 1).val ∧ (i 1).val < win0_10.index t (1 : Fin 2) * 128 + 128
    omega

/-- The same for the second output. -/
theorem cover_cell (i : S16384x128.Idx) :
    ∃ t : Fin cfg0.N, (cfg0.win 11).flush t = true ∧ i ∈ ((cfg0.win 11).blk t).view.set := by
  have hi0 : (i 0).val < 16384 := (i 0).isLt
  have hi1 : (i 1).val < 128 := (i 1).isLt
  obtain ⟨t, q0⟩ := idx_onto ⟨(i 0).val / 256, by omega⟩
  have q0' : win0_10.index t (0 : Fin 2) = (i 0).val / 256 := q0
  obtain ⟨_, _, f2, f3, _⟩ := idx_facts t
  refine ⟨t, flush0_11 t, ?_⟩
  rw [mem_block_cell]
  intro a
  match a with
  | ⟨0, _⟩ =>
    show win0_11.index t (0 : Fin 2) * 256 ≤ (i 0).val ∧ (i 0).val < win0_11.index t (0 : Fin 2) * 256 + 256
    omega
  | ⟨1, _⟩ =>
    show win0_11.index t (1 : Fin 2) * 128 ≤ (i 1).val ∧ (i 1).val < win0_11.index t (1 : Fin 2) * 128 + 128
    omega

/-! ## The arrays after the run, and the run re-posted -/

/-- After the run the first output array is the specification's hidden function of the arguments. -/
theorem final_hidden (c : Dev nD) : (dats m 0 c).arrAt 10 cfg0.N = hiddenArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 10 _ (fun t _ => flushed_hidden m c t) cover_hidden

/-- After the run the second output array is the specification's cell function of the arguments. -/
theorem final_cell (c : Dev nD) : (dats m 0 c).arrAt 11 cfg0.N = cellArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed_cell m c t) cover_cell

/-- The kernel's run: every weakly fair execution terminates without a fault, the two results at the specification's
    functions of the arguments, the arguments unchanged. -/
theorem run : θ_run defs (onTc (τ := τ) (main (F := Ideal))) ⟨m, fun _ => 0, ρ⟩ fun r => ∀ c : Dev nD,
      r.2.mem ((c : Thread nD τ).loc main_v9_0) = hiddenArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v9_1) = cellArr (m ((c : Thread nD τ).loc main_arg0)) (m ((c : Thread nD τ).loc main_arg3)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.SkipCell.Arrays

end
-- ==== Proof.lean ====
/-
  The certificate of a recurrent cell with skip connections: a Pallas kernel over blocks of 256 batch rows against its
  plain jnp reference, equal at the ideal instance.

  For each of 16384 batch rows the programs compute, from an input row, a hidden row, fifty skip rows and a count of how
  many of them are present: three gates from two matrix products and a bias (logistic, logistic, tanh); for each skip edge
  an attention weight, the logistic of a sum of two matrix products and a bias; the exponentials of the input gate and of
  the attention weights, the latter zeroed on absent edges; the new cell value as the exp-weighted mean of the candidate
  and the skip rows; and the new hidden value, the output gate times the tanh of the cell value (Proof/Spec.lean states
  this once, as a function of one row).

  The two programs differ in four ways, none of which is a difference on the extended reals:
    · the kernel narrows its matrix operands to a shorter float format first: a change of format is the identity;
    · the kernel accumulates each product into a zero vector and sums the edges into the zero word, the reference uses a
      host product and a host sum from the word for 0.0: all are the same finite sums;
    · the kernel lays the 256 × 50 skip rows of a block out as 12800 rows for one product, the reference contracts the
      last axis of the three-dimensional array directly: the same entries, indexed differently;
    · the kernel applies the logistic operation, the reference spells it as one over one plus the exponential of the
      negation, with the word for 1.0: that is the logistic function's definition.
  No step uses distributivity or cancellation, so the inputs' finiteness is never needed.

  Proof/RefSide.lean reads the reference's run stage by stage as the specification; Proof/BlockSide.lean reads what one grid
  point computes as the specification on that block's rows; Proof/ArraySide.lean puts the 64 blocks together into the
  arrays after the run. The three frames are the programs' own runs; the idealization rewrote nothing, so there is nothing
  to preserve.
-/
import proofs.«143210_j40261023432818_1_alg».proof.Defs
import proofs.«143210_j40261023432818_1_alg».proof.Proof.Gen.Kernel
import proofs.«143210_j40261023432818_1_alg».proof.Proof.Gen.Kernel.Skeleton
import proofs.«143210_j40261023432818_1_alg».proof.Proof.Gen.Kernel.Launch
import proofs.«143210_j40261023432818_1_alg».proof.Proof.Gen.Kernel.Points
import proofs.«143210_j40261023432818_1_alg».proof.Proof.Gen.Kernel.Frame
import proofs.«143210_j40261023432818_1_alg».proof.Proof.Gen.KernelIdeal
import proofs.«143210_j40261023432818_1_alg».proof.Proof.Gen.KernelIdeal.Skeleton
import proofs.«143210_j40261023432818_1_alg».proof.Proof.Gen.KernelIdeal.Launch
import proofs.«143210_j40261023432818_1_alg».proof.Proof.Gen.KernelIdeal.Points
import proofs.«143210_j40261023432818_1_alg».proof.Proof.Gen.KernelIdeal.Frame
import proofs.«143210_j40261023432818_1_alg».proof.Proof.Gen.ReferenceIdeal
import proofs.«143210_j40261023432818_1_alg».proof.Proof.Gen.Pre_finite_inputs
import proofs.«143210_j40261023432818_1_alg».proof.Proof.Gen.KernelIdeal.Value
import proofs.«143210_j40261023432818_1_alg».proof.Proof.Gen.ReferenceIdeal.Run
import proofs.«143210_j40261023432818_1_alg».proof.Proof.Gen.ReferenceIdeal.Read
import proofs.«143210_j40261023432818_1_alg».proof.Proof.Spec
import proofs.«143210_j40261023432818_1_alg».proof.Proof.RefSide
import proofs.«143210_j40261023432818_1_alg».proof.Proof.ArraySide
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- So does the reference: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the eleven arguments, both programs end with the hidden array and the cell array at the
    specification's functions of those arguments: the kernel's run block by block, the reference's stage by stage. -/
theorem algebraic : Cert.algebraic_KernelIdeal_ReferenceIdeal := by
  intro m ρ m' ρ' _ hagree
  refine ⟨fun c => Cert.SkipCell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.SkipCell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.SkipCell.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, _, a5, a6, a7, a8, a9, a10⟩ := hagree c
    rw [Cert.ReferenceIdeal.Read.val_main_v56_eq, Cert.SkipCell.Reference.hidden_eq, a0, a1, a2, a3, a5, a6, a7, a8, a9, a10]
  · obtain ⟨a0, a1, a2, a3, _, a5, a6, a7, a8, a9, a10⟩ := hagree c
    rw [Cert.ReferenceIdeal.Read.val_main_v54_eq, Cert.SkipCell.Reference.cell_eq, a0, a1, a2, a3, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
